-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2048x512 : Shape := ⟨2, ![2048, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S50000x512 .f32) (main_arg1 : FVec F S2048x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S50000x512 : Shape := ⟨2, ![50000, 512]⟩
abbrev S2048x512 : Shape := ⟨2, ![2048, 512]⟩
abbrev S2048x50000 : Shape := ⟨2, ![2048, 50000]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S2048x50000, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![25, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x512_S512x512_0_0 : ∀ a, (![0, 0] : Fin 2 → Nat) a + S512x512.size a ≤ S512x512.size a
  h_S512x512 : 0 < S512x512.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  reduces_S512x512_S512 : S512x512.Reduces [1] S512
  shapeCasts_S512_S512x1 : S512.ShapeCasts S512x1
  reduces_S2048x512_S2048 : S2048x512.Reduces [1] S2048
  shapeCasts_S2048_S2048x1 : S2048.ShapeCasts S2048x1
  transposes_S2048x1_p1_0_S1x2048 : S2048x1.Transposes [1, 0] S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x512.size a
  hwx0_0 : ∀ i : grid0.Coords, EltTy.bits .f32 = 32 ∨ (Rect.block (s := S2048x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x512.size a < S50000x512.size a
  hwx0_1 : ∀ i : grid0.Coords, EltTy.bits .f32 = 32 ∨ (Rect.unit (s := S50000x512) (fun a => cc0_transform_1 i a * S2048x512.size a) (fun a => (Pipeline.Clip.of (cc0_transform_1 i a) (S2048x512.size a) (S50000x512.size a)).extent (S2048x512.size a)) fun a => Pipeline.Clip.inb (Pipeline.Clip.ok_of (hstart0_1 i a))).WholeWords (EltTy.packing .f32)
  hwxs0_1 : ∀ i : grid0.Coords, EltTy.bits .f32 = 32 ∨ (Rect.unit (s := S2048x512) (fun _ => 0) (fun a => (Pipeline.Clip.of (cc0_transform_1 i a) (S2048x512.size a) (S50000x512.size a)).extent (S2048x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S512x2048.size a < S2048x50000.size a
  hwx0_2 : ∀ i : grid0.Coords, EltTy.bits .f32 = 32 ∨ (Rect.unit (s := S2048x50000) (fun a => cc0_transform_2 i a * S512x2048.size a) (fun a => (Pipeline.Clip.of (cc0_transform_2 i a) (S512x2048.size a) (S2048x50000.size a)).extent (S512x2048.size a)) fun a => Pipeline.Clip.inb (Pipeline.Clip.ok_of (hstart0_2 i a))).WholeWords (EltTy.packing .f32)
  hwxs0_2 : ∀ i : grid0.Coords, EltTy.bits .f32 = 32 ∨ (Rect.unit (s := S512x2048) (fun _ => 0) (fun a => (Pipeline.Clip.of (cc0_transform_2 i a) (S512x2048.size a) (S2048x50000.size a)).extent (S512x2048.size a)) fun a => (Nat.zero_add _).trans_le (Pipeline.Clip.extent_le (Pipeline.Clip.ok_of (hstart0_2 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S2048x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S512x2048.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2048x512 : Shape := ⟨2, ![2048, 512]⟩
abbrev S2048x50000 : Shape := ⟨2, ![2048, 50000]⟩
abbrev S_ : Shape := ⟨0, ![]⟩
abbrev S50000 : Shape := ⟨1, ![50000]⟩
abbrev S2048 : Shape := ⟨1, ![2048]⟩
abbrev S2048x1 : Shape := ⟨2, ![2048, 1]⟩
abbrev S1x50000 : Shape := ⟨2, ![1, 50000]⟩

abbrev nBuf : Space → Nat
  | .hbm => 20
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2048x512, .f32⟩
  | .hbm, ⟨2, _⟩ => ⟨S2048x50000, .f32⟩
  | .hbm, ⟨3, _⟩ => ⟨S50000x512, .f32⟩
  | .hbm, ⟨4, _⟩ => ⟨S_, .f32⟩
  | .hbm, ⟨5, _⟩ => ⟨S50000, .f32⟩
  | .hbm, ⟨6, _⟩ => ⟨S50000, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2048x1, .f32⟩
  | .hbm, ⟨12, _⟩ => ⟨S1x50000, .f32⟩
  | .hbm, ⟨13, _⟩ => ⟨S2048x50000, .f32⟩
  | .hbm, ⟨14, _⟩ => ⟨S2048x50000, .f32⟩
  | .hbm, ⟨15, _⟩ => ⟨S2048x50000, .f32⟩
  | .hbm, ⟨16, _⟩ => ⟨S_, .f32⟩
  | .hbm, ⟨17, _⟩ => ⟨S2048x50000, .f32⟩
  | .hbm, ⟨18, _⟩ => ⟨S2048x50000, .f32⟩
  | .hbm, ⟨19, _⟩ => ⟨S2048x50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S50000x512_S50000_d1 : S50000x512.ReducesTo [1] S50000
  h_S_ : 0 < S_.numel
  reducesTo_S2048x512_S2048_d1 : S2048x512.ReducesTo [1] S2048
  bcast_S2048_S2048x1_0 : S2048.BroadcastsInDim S2048x1 (![0] : Fin 1 → Fin S2048x1.rank)
  bcast_S50000_S1x50000_1 : S50000.BroadcastsInDim S1x50000 (![1] : Fin 1 → Fin S1x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  bcast_S_S2048x50000 : S_.BroadcastsInDim S2048x50000 (![] : Fin 0 → Fin S2048x50000.rank)
  dot_S2048x512_S50000x512_S2048x50000_1_1_0_0_n_n_wf : DotDims.WF S2048x512 S50000x512 S2048x50000 [1] [1] [0] [0] [] []

variable [Facts₀]

def dot_S2048x512_S50000x512_S2048x50000_1_1_0_0_n_n : DotDims S2048x512 S50000x512 S2048x50000 where
  lhsContracting := [1]
  rhsContracting := [1]
  lhsNonContracting := [0]
  rhsNonContracting := [0]
  lhsBatch := []
  rhsBatch := []
  wf := dot_S2048x512_S50000x512_S2048x50000_1_1_0_0_n_n_wf

class Facts : Prop extends Facts₀ where

variable [Facts]
-- ==== Proof.Staging.lean ====
/-
  The cosine kernel's body on its staging buffers, and the proof data of its one pipeline, at any float
  instance F.

  The grid is 25 x 4 points (support tile outer, query tile inner). At a point the body loads the query tile
  (512 x 512) and the support tile (2048 x 512) whole, and stores ONE 512 x 2048 tile: the dot products of the
  query rows with the support rows, each divided by the larger of the product of the two rows' norms and a small
  constant. The support array has 50000 rows and 25 * 2048 = 51200: the last support tile overhangs the array
  by 1200 rows, and so does the last column tile of the result. What the staging buffer holds in those rows is
  not determined by the arrays; this module states each buffer's contents on the part inside the array and
  leaves the rest as a parameter.
-/
import proofs.«141503_j2594160247418_2_alg».proof.Proof.Gen.KernelIdeal.Frame
import proofs.«141503_j2594160247418_2_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Staging

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three whole-buffer accesses -/

/-- The whole query tile, the whole support tile, the whole result tile. -/
abbrev rq : Rect S512x512 := Rect.unit (s := S512x512) ![0, 0] S512x512.size inb_S512x512_S512x512_0_0
abbrev rs : Rect S2048x512 := Rect.unit (s := S2048x512) ![0, 0] S2048x512.size inb_S2048x512_S2048x512_0_0
abbrev ro : Rect S512x2048 := Rect.unit (s := S512x2048) ![0, 0] S512x2048.size inb_S512x2048_S512x2048_0_0

/-- The result tile the body leaves, from the contents of the query and support buffers: its one store. -/
def tileOut (x0 : Vec F S512x512 .f32) (x1 : Vec F S2048x512 .f32) : Vec F S512x2048 .f32 :=
  View.canon [⟨ro, k0_pay1 (View.ld x0 rq) (View.ld x1 rs)⟩]

/-- The one store covers the result buffer. -/
theorem tileOut_cover (p0 : Vec F S512x2048 .f32) (y : S512x2048.Idx) :
    ∃ pc ∈ ([⟨ro, p0⟩] : List (View.Piece (Elt F) S512x2048 .f32)), y ∈ pc.1.set :=
  View.cover_of_tiled [⟨ro, p0⟩] S512x2048.size (by rfl) y

set_option maxHeartbeats 1000000 in
/-- The body on whole staging buffers (the query's at x0, the support's at x1, the result's at anything)
    runs to the end, leaves the two inputs as they were and the result's buffer at the tile computed from them. -/
theorem sound_kernel (c : Dev nD) (E : Set ℕ) (i : grid0.Coords)
    (arg2 : Memref sig .tc .vmem S512x512 .f32) (harg2 : arg2.IsWhole)
    (arg3 : Memref sig .tc .vmem S2048x512 .f32) (harg3 : arg3.IsWhole)
    (arg4 : Memref sig .tc .vmem S512x2048 .f32) (harg4 : arg4.IsWhole)
    (x0 : Vec F S512x512 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tileOut_cover _)

/-! ## The proof data -/

/-- The word that fills out a staging buffer past the array's end where a definition needs SOME word there. -/
abbrev pad : Elt F .f32 := Scalar.ofBits .f32 0#32

/-- The support buffer after the body at point t: the support tile's rows inside the array, padded. -/
def supTile (c : Dev nD) (t : Fin cfg0.N) : S2048x512.Idx → Elt F .f32 :=
  win0_1.fill (grid0.coords t) (fun _ => pad) (iblk m c 1 t)

/-- The proof data of the pipeline on core c: the arrays as the region finds them; after the body the query
    buffer at its tile, the support buffer at its (padded) tile, the result buffer at the tile computed from
    those two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => supTile m c t
    | ⟨2, _⟩ => tileOut (iblk m c 0 t) (supTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = supTile m c t := by dsimp only [dats]
theorem after0_2 (c : Dev nD) (t : Fin cfg0.N) :
    (dats m 0 c).after 2 t = tileOut (iblk m c 0 t) (supTile m c t) := by dsimp only [dats]

/-- The query buffer holds the query tile at every point, fetched there or not. -/
theorem before0_0 (c : Dev nD) (t : Fin cfg0.N) (d) : (dats m 0 c).before 0 t d = iblk m c 0 t :=
  before0_0_of m (dats m 0 c) (A_eq m c 0) (after0_0 m c) t d

/-- How much of a support tile lies inside the array depends on the tile's index only. -/
theorem clip1_of_index (t t' : Fin cfg0.N) (h : (cfg0.win 1).index t = (cfg0.win 1).index t') :
    (cfg0.win 1).clip (cfg0.grid.coords t) = (cfg0.win 1).clip (cfg0.grid.coords t') := by
  have h' : cc0_transform_1 (grid0.coords t) = cc0_transform_1 (grid0.coords t') := h
  funext a
  show Pipeline.Clip.of (cc0_transform_1 (grid0.coords t) a) _ _ = Pipeline.Clip.of (cc0_transform_1 (grid0.coords t') a) _ _
  rw [h']

/-- The support buffer holds, at every point, the support tile's rows inside the array, and past them whatever
    the buffer held (d): at the four points of one support tile the same buffer, fetched at the first. -/
theorem before0_1 (c : Dev nD) (t : Fin cfg0.N) (d) :
    (dats m 0 c).before 1 t d = win0_1.fill (grid0.coords t) d (iblk m c 1 t) :=
  ((dats m 0 c).before_in_eq_fetched 1 rfl (fun _ => rfl) clip1_of_index
      (fun t => by rw [after0_1]; unfold supTile; rw [Window.cut_fill]; unfold Dat.blockOf iblk; rw [A_eq]) t d).trans
    (by unfold Dat.fetched Dat.blockOf iblk; rw [A_eq])

/-! ## The body at a point -/

/-- The part of the result tile inside the array does not depend on what fills the support buffer past the
    array's end: a result column reads its own support row only. A hypothesis here; shown where the arithmetic
    is exact. -/
def TileLocal : Prop :=
  ∀ (c : Dev nD) (t : Fin cfg0.N) (d d' : S2048x512.Idx → Elt F .f32),
    win0_2.cut (grid0.coords t) (tileOut (iblk m c 0 t) (win0_1.fill (grid0.coords t) d (iblk m c 1 t)))
      = win0_2.cut (grid0.coords t) (tileOut (iblk m c 0 t) (win0_1.fill (grid0.coords t) d' (iblk m c 1 t)))

/-- The result window alone is forgotten by the frame: nothing the frame says reads it. -/
def forgetsOut : Fin 3 → Bool := fun w => w.val == 2

/-- What the body is called with at point t, the result buffer at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- the same with the result buffer as the pipeline hands it over, -/
def bodyPreNamed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- what it returns when the result buffer is not named, -/
def bodyPostForgot (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

/-- and what it returns when it is: the result buffer at its tile on the part inside the array. -/
def bodyPostNamed (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body_forgot (c : Dev nD) (t : Fin cfg0.N) :
    bodyPre m c t ⊢ wp frame (wpE (defs₀ (F := F)) Variants.none c none) Set.univ (bodyAt0 t) (fun _ => bodyPostForgot m c t) := by
  unfold bodyPre bodyPostForgot bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; unfold supTile; rw [Window.cut_fill]; iexact H1
  iexists _; iexact H2

theorem sound_body_named (hloc : TileLocal m) (c : Dev nD) (t : Fin cfg0.N) :
    bodyPreNamed m c t ⊢ wp frame (wpE (defs₀ (F := F)) Variants.none c none) Set.univ (bodyAt0 t) (fun _ => bodyPostNamed m c t) := by
  unfold bodyPreNamed bodyPostNamed bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; unfold supTile; rw [Window.cut_fill]; iexact H1
  have e := win0_2.fill_congr_cut (grid0.coords t) (hloc c t d1 (fun _ => pad))
  have hent := Eq.subst
    (motive := fun Z => (owns (c : Thread nD τ) (st0_2 t) fullShare
        (tileOut (iblk m c 0 t) (win0_1.fill (grid0.coords t) d1 (iblk m c 1 t))) : sProp 𝕄)
      ⊢ owns (c : Thread nD τ) (st0_2 t) fullShare Z) e.symm (BI.Entails.refl _)
  iexists tileOut (iblk m c 0 t) (win0_1.fill (grid0.coords t) d1 (iblk m c 1 t))
  unfold supTile
  iapply hent
  iexact H2

/-- The pipeline's obligation at every point, the result window forgotten. -/
theorem body_obligation_forgot (c : Dev nD) :
    BodyObligationLoose (dats (F := F) m 0 c) (defs₀ (F := F)) Variants.none () Set.univ forgetsOut := fun t => by
  rw [bigSep_W0, bigSep_W0]
  exact sound_body_forgot m c t

/-- The pipeline's obligation at every point, every window named. -/
theorem body_obligation_named (hloc : TileLocal m) (c : Dev nD) :
    BodyObligationLoose (dats (F := F) m 0 c) (defs₀ (F := F)) Variants.none () Set.univ := fun t => by
  rw [bigSep_W0, bigSep_W0]
  exact sound_body_named m hloc c t

/-! ## The runs -/

set_option backward.isDefEq.respectTransparency.types false in
/-- Every weakly fair execution terminates without a fault; the two argument arrays end as they began and
    nothing is said of the result. -/
theorem run_forgot : θ_run defs (onTc (τ := τ) (main (F := F))) (s₀ m ρ)
    (Pipeline.RDat.FramePost (cfgs 0) (fun c => (dats m 0 c).toRForget forgetsOut) (V m)) :=
  Pipeline.RDat.θ_run_frame cfgs (0 : Fin 1) launch0 defs₀ Variants.none (fun c => (dats m 0 c).toRForget forgetsOut) m ρ main
    (hbody := fun c => (body_obligation_forgot m c).toRForget) (hshare := fun c => ((dats m 0 c).toRForget forgetsOut).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgetsOut).ArrAt_in 1 rfl _) _) ((h c).1 1)).trans ((A_eq m c 1).trans (V_main_arg0 m c)),
     (Eq.mp (congrFun (((dats m 0 c).toRForget forgetsOut).ArrAt_in 0 rfl _) _) ((h c).1 0)).trans ((A_eq m c 0).trans (V_main_arg1 m c))⟩)
    (run_forgot m ρ)

set_option backward.isDefEq.respectTransparency.types false in
/-- With every window named: each array of the pipeline ends at what the write-backs of the tiles leave. -/
theorem run_named (hloc : TileLocal m) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation_named m hloc c) (hshare := fun c => (dats m 0 c).share_full fun _ => rfl)
    (howed := fun _ _ => rfl) (V := V m) (hmain := hmain m Variants.none) (hA := A_eq m) (hΦ := fun _ _ => rfl)

end Cert.KernelIdeal.Staging

end
-- ==== Proof.StagingBits.lean ====
/-
  The cosine kernel's body on its staging buffers, and the proof data of its one pipeline, at any float
  instance F.

  The grid is 25 x 4 points (support tile outer, query tile inner). At a point the body loads the query tile
  (512 x 512) and the support tile (2048 x 512) whole, and stores ONE 512 x 2048 tile: the dot products of the
  query rows with the support rows, each divided by the larger of the product of the two rows' norms and a small
  constant. The support array has 50000 rows and 25 * 2048 = 51200: the last support tile overhangs the array
  by 1200 rows, and so does the last column tile of the result. What the staging buffer holds in those rows is
  not determined by the arrays; this module states each buffer's contents on the part inside the array and
  leaves the rest as a parameter.
-/
import proofs.«141503_j2594160247418_2_alg».proof.Proof.Gen.Kernel.Frame
import proofs.«141503_j2594160247418_2_alg».proof.Proof.Gen.Kernel.Skeleton
import Idealize.ShloMosaic.Lib.Pipeline.Frame
import Idealize.ShloMosaic.Lib.Pipeline.FrameBody
import Idealize.ShloMosaic.Lib.Tactic

set_option maxRecDepth 16384

noncomputable section

namespace Cert.Kernel.Staging

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's three whole-buffer accesses -/

/-- The whole query tile, the whole support tile, the whole result tile. -/
abbrev rq : Rect S512x512 := Rect.unit (s := S512x512) ![0, 0] S512x512.size inb_S512x512_S512x512_0_0
abbrev rs : Rect S2048x512 := Rect.unit (s := S2048x512) ![0, 0] S2048x512.size inb_S2048x512_S2048x512_0_0
abbrev ro : Rect S512x2048 := Rect.unit (s := S512x2048) ![0, 0] S512x2048.size inb_S512x2048_S512x2048_0_0

/-- The result tile the body leaves, from the contents of the query and support buffers: its one store. -/
def tileOut (x0 : Vec F S512x512 .f32) (x1 : Vec F S2048x512 .f32) : Vec F S512x2048 .f32 :=
  View.canon [⟨ro, k0_pay1 (View.ld x0 rq) (View.ld x1 rs)⟩]

/-- The one store covers the result buffer. -/
theorem tileOut_cover (p0 : Vec F S512x2048 .f32) (y : S512x2048.Idx) :
    ∃ pc ∈ ([⟨ro, p0⟩] : List (View.Piece (Elt F) S512x2048 .f32)), y ∈ pc.1.set :=
  View.cover_of_tiled [⟨ro, p0⟩] S512x2048.size (by rfl) y

set_option maxHeartbeats 1000000 in
/-- The body on whole staging buffers (the query's at x0, the support's at x1, the result's at anything)
    runs to the end, leaves the two inputs as they were and the result's buffer at the tile computed from them. -/
theorem sound_kernel (c : Dev nD) (E : Set ℕ) (i : grid0.Coords)
    (arg2 : Memref sig .tc .vmem S512x512 .f32) (harg2 : arg2.IsWhole)
    (arg3 : Memref sig .tc .vmem S2048x512 .f32) (harg3 : arg3.IsWhole)
    (arg4 : Memref sig .tc .vmem S512x2048 .f32) (harg4 : arg4.IsWhole)
    (x0 : Vec F S512x512 .f32) (x1 : Vec F S2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut x0 x1)) -∗ K ⟨⟩))
      ⊢ wp frame (wpE (defs₀ (F := F)) Variants.none c none) E (cc0__cosine_kernel i arg2 harg2 arg3 harg3 arg4 harg4) K := by
  simp only [cc0__cosine_kernel_eq_skeleton]; unfold cc0__cosine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tileOut_cover _)

/-! ## The proof data -/

/-- The word that fills out a staging buffer past the array's end where a definition needs SOME word there. -/
abbrev pad : Elt F .f32 := Scalar.ofBits .f32 0#32

/-- The support buffer after the body at point t: the support tile's rows inside the array, padded. -/
def supTile (c : Dev nD) (t : Fin cfg0.N) : S2048x512.Idx → Elt F .f32 :=
  win0_1.fill (grid0.coords t) (fun _ => pad) (iblk m c 1 t)

/-- The proof data of the pipeline on core c: the arrays as the region finds them; after the body the query
    buffer at its tile, the support buffer at its (padded) tile, the result buffer at the tile computed from
    those two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => supTile m c t
    | ⟨2, _⟩ => tileOut (iblk m c 0 t) (supTile m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = supTile m c t := by dsimp only [dats]
theorem after0_2 (c : Dev nD) (t : Fin cfg0.N) :
    (dats m 0 c).after 2 t = tileOut (iblk m c 0 t) (supTile m c t) := by dsimp only [dats]

/-- The query buffer holds the query tile at every point, fetched there or not. -/
theorem before0_0 (c : Dev nD) (t : Fin cfg0.N) (d) : (dats m 0 c).before 0 t d = iblk m c 0 t :=
  before0_0_of m (dats m 0 c) (A_eq m c 0) (after0_0 m c) t d

/-- How much of a support tile lies inside the array depends on the tile's index only. -/
theorem clip1_of_index (t t' : Fin cfg0.N) (h : (cfg0.win 1).index t = (cfg0.win 1).index t') :
    (cfg0.win 1).clip (cfg0.grid.coords t) = (cfg0.win 1).clip (cfg0.grid.coords t') := by
  have h' : cc0_transform_1 (grid0.coords t) = cc0_transform_1 (grid0.coords t') := h
  funext a
  show Pipeline.Clip.of (cc0_transform_1 (grid0.coords t) a) _ _ = Pipeline.Clip.of (cc0_transform_1 (grid0.coords t') a) _ _
  rw [h']

/-- The support buffer holds, at every point, the support tile's rows inside the array, and past them whatever
    the buffer held (d): at the four points of one support tile the same buffer, fetched at the first. -/
theorem before0_1 (c : Dev nD) (t : Fin cfg0.N) (d) :
    (dats m 0 c).before 1 t d = win0_1.fill (grid0.coords t) d (iblk m c 1 t) :=
  ((dats m 0 c).before_in_eq_fetched 1 rfl (fun _ => rfl) clip1_of_index
      (fun t => by rw [after0_1]; unfold supTile; rw [Window.cut_fill]; unfold Dat.blockOf iblk; rw [A_eq]) t d).trans
    (by unfold Dat.fetched Dat.blockOf iblk; rw [A_eq])

/-! ## The body at a point -/

/-- The part of the result tile inside the array does not depend on what fills the support buffer past the
    array's end: a result column reads its own support row only. A hypothesis here; shown where the arithmetic
    is exact. -/
def TileLocal : Prop :=
  ∀ (c : Dev nD) (t : Fin cfg0.N) (d d' : S2048x512.Idx → Elt F .f32),
    win0_2.cut (grid0.coords t) (tileOut (iblk m c 0 t) (win0_1.fill (grid0.coords t) d (iblk m c 1 t)))
      = win0_2.cut (grid0.coords t) (tileOut (iblk m c 0 t) (win0_1.fill (grid0.coords t) d' (iblk m c 1 t)))

/-- The result window alone is forgotten by the frame: nothing the frame says reads it. -/
def forgetsOut : Fin 3 → Bool := fun w => w.val == 2

/-- What the body is called with at point t, the result buffer at anything, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ X, owns (c : Thread nD τ) (st0_2 t) fullShare X))

/-- the same with the result buffer as the pipeline hands it over, -/
def bodyPreNamed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- what it returns when the result buffer is not named, -/
def bodyPostForgot (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ X, owns (c : Thread nD τ) (st0_2 t) fullShare X))

/-- and what it returns when it is: the result buffer at its tile on the part inside the array. -/
def bodyPostNamed (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body_forgot (c : Dev nD) (t : Fin cfg0.N) :
    bodyPre m c t ⊢ wp frame (wpE (defs₀ (F := F)) Variants.none c none) Set.univ (bodyAt0 t) (fun _ => bodyPostForgot m c t) := by
  unfold bodyPre bodyPostForgot bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; unfold supTile; rw [Window.cut_fill]; iexact H1
  iexists _; iexact H2

theorem sound_body_named (hloc : TileLocal m) (c : Dev nD) (t : Fin cfg0.N) :
    bodyPreNamed m c t ⊢ wp frame (wpE (defs₀ (F := F)) Variants.none c none) Set.univ (bodyAt0 t) (fun _ => bodyPostNamed m c t) := by
  unfold bodyPreNamed bodyPostNamed bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%X2, H2⟩⟩
  iapply (sound_kernel c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1; unfold supTile; rw [Window.cut_fill]; iexact H1
  have e := win0_2.fill_congr_cut (grid0.coords t) (hloc c t d1 (fun _ => pad))
  have hent := Eq.subst
    (motive := fun Z => (owns (c : Thread nD τ) (st0_2 t) fullShare
        (tileOut (iblk m c 0 t) (win0_1.fill (grid0.coords t) d1 (iblk m c 1 t))) : sProp 𝕄)
      ⊢ owns (c : Thread nD τ) (st0_2 t) fullShare Z) e.symm (BI.Entails.refl _)
  iexists tileOut (iblk m c 0 t) (win0_1.fill (grid0.coords t) d1 (iblk m c 1 t))
  unfold supTile
  iapply hent
  iexact H2

/-- The pipeline's obligation at every point, the result window forgotten. -/
theorem body_obligation_forgot (c : Dev nD) :
    BodyObligationLoose (dats (F := F) m 0 c) (defs₀ (F := F)) Variants.none () Set.univ forgetsOut := fun t => by
  rw [bigSep_W0, bigSep_W0]
  exact sound_body_forgot m c t

/-- The pipeline's obligation at every point, every window named. -/
theorem body_obligation_named (hloc : TileLocal m) (c : Dev nD) :
    BodyObligationLoose (dats (F := F) m 0 c) (defs₀ (F := F)) Variants.none () Set.univ := fun t => by
  rw [bigSep_W0, bigSep_W0]
  exact sound_body_named m hloc c t

/-! ## The runs -/

set_option backward.isDefEq.respectTransparency.types false in
/-- Every weakly fair execution terminates without a fault; the two argument arrays end as they began and
    nothing is said of the result. -/
theorem run_forgot : θ_run defs (onTc (τ := τ) (main (F := F))) (s₀ m ρ)
    (Pipeline.RDat.FramePost (cfgs 0) (fun c => (dats m 0 c).toRForget forgetsOut) (V m)) :=
  Pipeline.RDat.θ_run_frame cfgs (0 : Fin 1) launch0 defs₀ Variants.none (fun c => (dats m 0 c).toRForget forgetsOut) m ρ main
    (hbody := fun c => (body_obligation_forgot m c).toRForget) (hshare := fun c => ((dats m 0 c).toRForget forgetsOut).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(Eq.mp (congrFun (((dats m 0 c).toRForget forgetsOut).ArrAt_in 1 rfl _) _) ((h c).1 1)).trans ((A_eq m c 1).trans (V_main_arg0 m c)),
     (Eq.mp (congrFun (((dats m 0 c).toRForget forgetsOut).ArrAt_in 0 rfl _) _) ((h c).1 0)).trans ((A_eq m c 0).trans (V_main_arg1 m c))⟩)
    (run_forgot m ρ)

set_option backward.isDefEq.respectTransparency.types false in
/-- With every window named: each array of the pipeline ends at what the write-backs of the tiles leave. -/
theorem run_named (hloc : TileLocal m) : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation_named m hloc c) (hshare := fun c => (dats m 0 c).share_full fun _ => rfl)
    (howed := fun _ _ => rfl) (V := V m) (hmain := hmain m Variants.none) (hA := A_eq m) (hΦ := fun _ _ => rfl)

end Cert.Kernel.Staging

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.CosRow.lean ====
/-
  The cosine similarity of two rows of 512 numbers, over the extended reals: their dot product divided by the
  larger of the product of their norms and a small positive constant (the float whose word is 0x322BCC77, about
  1e-8). Both programs compute, at result entry (i, j), this function of query row i and support row j.
-/
import Idealize.ShloMosaic.PureOps.Ideal
import Idealize.ShloMosaic.Lib.ValueIdx

noncomputable section

namespace Cert.Cosine

open Idealize.ShloMosaic Idealize.ShloMosaic.ValueIdx

/-- The dot product of x and y over the larger of |x| * |y| and the constant. -/
def cosRow (x y : Fin 512 → EReal) : EReal :=
  Ideal.div (∑ k, x k * y k)
    (max (Ideal.sqrt (∑ k, x k * x k) * Ideal.sqrt (∑ k, y k * y k)) (Ideal.ofBits .f32 0x322BCC77#32))

/-- The whole result, 2048 queries by 50000 supports, from the support array s and the query array qa: entry
    (i, j) is the cosine similarity of query row i and support row j. -/
def cosAll (s : (⟨2, ![50000, 512]⟩ : Shape).Idx → EReal) (qa : (⟨2, ![2048, 512]⟩ : Shape).Idx → EReal) :
    (⟨2, ![2048, 50000]⟩ : Shape).Idx → EReal :=
  fun i => cosRow (fun k => qa (ix2 (⟨(i 0).val, (i 0).isLt⟩ : Fin 2048) k))
    (fun k => s (ix2 (⟨(i 1).val, (i 1).isLt⟩ : Fin 50000) k))

end Cert.Cosine

end
-- ==== Proof.TileValue.lean ====
/-
  The kernel's tile at exact arithmetic, entry by entry: at (p, q) it is the cosine similarity of row p of the
  query buffer and row q of the support buffer. The matrix product into a zero accumulator is the rows' dot
  product; each norm is the square root of a row's sum of squares, carried to the tile's shape by a cast to a
  column, (for the support) a transpose to a row, and a broadcast; the change of float format before the
  product is the identity.
-/
import proofs.«141503_j2594160247418_2_alg».proof.Proof.Gen.KernelIdeal.Skeleton
import proofs.«141503_j2594160247418_2_alg».proof.Proof.LibKeepdims
import proofs.«141503_j2594160247418_2_alg».proof.Proof.CosRow
import Idealize.ShloMosaic.Lib.ValueIdx
import Idealize.ShloMosaic.Lib.ValueLayout
import Idealize.ShloMosaic.PureOps.Ideal.Laws

noncomputable section

namespace Cert.KernelIdeal.TileValue

open Cert.KernelIdeal Cert.KernelIdeal.Gen Cert.Lib.Keepdims Cert.Cosine
open Idealize.ShloMosaic Idealize.ShloMosaic.ValueIdx

/-- The product's dimension record: query rows by support rows, contracting the 512 columns of both. -/
abbrev D := dot_S512x512_S2048x512_S512x2048_1_1_0_0_n_n

theorem lhs0 (i : S512x2048.Idx) (q : D.contr.Idx) : (D.lhsIdx i q 0).val = (i 0).val := by
  unfold DotDims.lhsIdx
  rw [dif_neg (show ¬(0 : Fin S512x512.rank) ∈ D.lhsBatch by decide), dif_pos (show (0 : Fin S512x512.rank) ∈ D.lhsNonContracting by decide)]
  rfl
theorem lhs1 (i : S512x2048.Idx) (q : D.contr.Idx) : (D.lhsIdx i q 1).val = (q ⟨0, by decide⟩).val :=
  D.lhsIdx_val_of_single rfl i q
theorem rhs0 (i : S512x2048.Idx) (q : D.contr.Idx) : (D.rhsIdx i q 0).val = (i 1).val := by
  unfold DotDims.rhsIdx
  rw [dif_neg (show ¬(0 : Fin S2048x512.rank) ∈ D.rhsBatch by decide), dif_pos (show (0 : Fin S2048x512.rank) ∈ D.rhsNonContracting by decide)]
  rfl
theorem rhs1 (i : S512x2048.Idx) (q : D.contr.Idx) : (D.rhsIdx i q 1).val = (q ⟨0, by decide⟩).val :=
  D.rhsIdx_val_of_single rfl i q

/-- The product into the zero accumulator, at (p, q): the dot product of row p of the left and row q of the right. -/
theorem dots_apply (x0 : FVec Ideal S512x512 .bf16) (x1 : FVec Ideal S2048x512 .bf16) (p : Fin 512) (q : Fin 2048) :
    matmul D none x0 x1 (constant (F := Ideal) S512x2048 .f32 0x00000000#32) (ix2 p q)
      = ∑ k : Fin 512, x0 (ix2 p k) * x1 (ix2 q k) := by
  refine (Ideal.matmul_constant_zero_apply D none x0 x1 (ix2 p q)).trans ?_
  rw [← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 512 rfl rfl).symm k) = ix2 q k := funext fun a => Fin.ext (by
    match a with
    | ⟨0, _⟩ => exact rhs0 _ _
    | ⟨1, _⟩ => exact (rhs1 _ _).trans hk)
  rw [el, er]

/-- The query rows' norms carried to the tile: at (p, q), the norm of row p. -/
theorem qnorm_apply (x0 : FVec Ideal S512x512 .f32) (p : Fin 512) (q : Fin 2048) :
    broadcastTo S512x2048 (sqrt (shapeCast S512x1 (multiReduction .add [1] S512 (mulf x0 x0) 0x00000000#32 reduces_S512x512_S512 (.inl rfl) rfl) shapeCasts_S512_S512x1)) broadcasts_S512x1_S512x2048 (ix2 p q)
      = Ideal.sqrt (∑ k : Fin 512, x0 (ix2 p k) * x0 (ix2 p k)) := by
  refine (broadcastTo_a1_ab_apply _ broadcasts_S512x1_S512x2048 p q).trans ?_
  show Ideal.sqrt (shapeCast S512x1 _ shapeCasts_S512_S512x1 (ix2 p (0 : Fin 1))) = _
  refine congrArg Ideal.sqrt ((shapeCast_a_a1_apply _ shapeCasts_S512_S512x1 p 0).trans ?_)
  exact rowSum_apply (mulf x0 x0) reduces_S512x512_S512 (.inl rfl) rfl p

/-- The support rows' norms carried to the tile: at (p, q), the norm of row q. -/
theorem snorm_apply (x1 : FVec Ideal S2048x512 .f32) (p : Fin 512) (q : Fin 2048) :
    broadcastTo S512x2048 (transpose S1x2048 [1, 0] (sqrt (shapeCast S2048x1 (multiReduction .add [1] S2048 (mulf x1 x1) 0x00000000#32 reduces_S2048x512_S2048 (.inl rfl) rfl) shapeCasts_S2048_S2048x1)) transposes_S2048x1_p1_0_S1x2048) broadcasts_S1x2048_S512x2048 (ix2 p q)
      = Ideal.sqrt (∑ k : Fin 512, x1 (ix2 q k) * x1 (ix2 q k)) := by
  refine (broadcastTo_1b_ab_apply _ broadcasts_S1x2048_S512x2048 p q).trans ?_
  refine (transpose_ix2_apply _ transposes_S2048x1_p1_0_S1x2048 (0 : Fin 1) q).trans ?_
  show Ideal.sqrt (shapeCast S2048x1 _ shapeCasts_S2048_S2048x1 (ix2 q (0 : Fin 1))) = _
  refine congrArg Ideal.sqrt ((shapeCast_a_a1_apply _ shapeCasts_S2048_S2048x1 q 0).trans ?_)
  exact rowSum_apply (mulf x1 x1) reduces_S2048x512_S2048 (.inl rfl) rfl q

/-- The tile at (p, q) is the cosine similarity of row p of the query buffer and row q of the support buffer. -/
theorem tile_apply (x0 : Vec Ideal S512x512 .f32) (x1 : Vec Ideal S2048x512 .f32) (p : Fin 512) (q : Fin 2048) :
    k0_pay1 (F := Ideal) x0 x1 (ix2 p q) = cosRow (fun k => x0 (ix2 p k)) (fun k => x1 (ix2 q k)) := by
  unfold k0_pay1 cosRow
  exact congrArg₂ Ideal.div (dots_apply _ _ p q)
    (congrArg₂ max (congrArg₂ (· * ·) (qnorm_apply x0 p q) (snorm_apply x1 p q)) rfl)

end Cert.KernelIdeal.TileValue

end
-- ==== Proof.Result.lean ====
/-
  The result array after the kernel's run, at exact arithmetic: the cosine similarity of every query row with
  every support row.

  At a point the tile written back is the part of the computed 512 x 2048 tile that lies inside the result array:
  all of it, except at the last column tile, where only the first 848 columns do (24 * 2048 + 848 = 50000). Entry
  (p, q) of the tile reads row p of the query buffer and row q of the support buffer and nothing else; for a column q
  inside the array that support row is inside the support array too (the support tile and the result's column tile
  have the same index and are cut alike), so the entry is the cosine similarity of query row 512 * a + p and support
  row 2048 * b + q, whatever the support buffer holds past the array's end. The 4 x 25 tiles cover the result.
-/
import proofs.«141503_j2594160247418_2_alg».proof.Proof.Staging
import proofs.«141503_j2594160247418_2_alg».proof.Proof.TileValue
import Idealize.ShloMosaic.Lib.Pipeline.Value

set_option maxRecDepth 16384

noncomputable section

namespace Cert.KernelIdeal.Result

open Cert.KernelIdeal Cert.KernelIdeal.Gen Cert.KernelIdeal.Staging Cert.KernelIdeal.TileValue Cert.Cosine
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zero_offsets : (![0, 0] : Fin 2 → Nat) = fun _ => 0 := funext fun a => by fin_cases a <;> rfl

/-- The body's accesses are whole buffers: the tile it leaves is its arithmetic applied to the two buffers. -/
theorem tileOut_eq {F : FTy → Type} [FloatOps F] (x0 : Vec F S512x512 .f32) (x1 : Vec F S2048x512 .f32) :
    tileOut x0 x1 = k0_pay1 x0 x1 := by
  unfold tileOut
  rw [View.canon_unit_zero zero_offsets]
  simp only [View.ld_unit_zero (S := S512x512) zero_offsets, View.ld_unit_zero (S := S2048x512) zero_offsets]

/-- The three windows' tile indices at a point, and how much of a tile lies inside its array: the query tile
    and the result's row tile have one index, the support tile and the result's column tile have one index and
    one cut; the result's column tiles are 2048 wide but the last (index 24), which is 848 wide. -/
theorem idx_facts : ∀ t : Fin cfg0.N,
    win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3
    ∧ win0_2.index t (1 : Fin 2) ≤ 24
    ∧ win0_2.xsize (grid0.coords t) (0 : Fin 2) = 512
    ∧ (win0_2.index t (1 : Fin 2) < 24 → win0_2.xsize (grid0.coords t) (1 : Fin 2) = 2048)
    ∧ (win0_2.index t (1 : Fin 2) = 24 → win0_2.xsize (grid0.coords t) (1 : Fin 2) = 848)
    ∧ win0_1.xsize (grid0.coords t) (0 : Fin 2) = win0_2.xsize (grid0.coords t) (1 : Fin 2)
    ∧ win0_1.xsize (grid0.coords t) (1 : Fin 2) = 512 :=
  (by decide +kernel : ∀ t : Fin grid0.N, _)

/-- Every pair of a row tile and a column tile of the result is some point's. -/
theorem idx_onto : ∀ (q0 : Fin 4) (q1 : Fin 25), ∃ t : Fin cfg0.N, win0_2.index t = ![q0.val, q1.val] :=
  (by decide +kernel : ∀ (q0 : Fin 4) (q1 : Fin 25), ∃ t : Fin grid0.N, win0_2.index t = ![q0.val, q1.val])

/-- What point t writes back is block t of the cosine similarities, whatever (d) the support buffer holds past
    the support array's end. -/
theorem tile_cut_eq (c : Dev nD) (t : Fin cfg0.N) (d : S2048x512.Idx → Elt Ideal .f32) :
    win0_2.cut (grid0.coords t) (tileOut (iblk m c 0 t) (win0_1.fill (grid0.coords t) d (iblk m c 1 t)))
      = ((cfg0.win 2).blk t).view.read (Elt Ideal) (cosAll (V m c main_arg0) (V m c main_arg1)) := by
  funext y
  obtain ⟨e00, e01, e10, e11, b0, b1, x20, x21a, x21b, x1eq, x11⟩ := idx_facts t
  have hy0 : (y 0).val < win0_2.xsize (grid0.coords t) (0 : Fin 2) := (y 0).isLt
  have hy1 : (y 1).val < win0_2.xsize (grid0.coords t) (1 : Fin 2) := (y 1).isLt
  have hp : (y 0).val < 512 := by omega
  have hq : (y 1).val < 2048 := by
    rcases Nat.lt_or_ge (win0_2.index t (1 : Fin 2)) 24 with h | h
    · have := x21a h; omega
    · have := x21b (by omega); omega
  have hx : win0_2.xinj (grid0.coords t) y = ix2 (⟨(y 0).val, hp⟩ : Fin 512) (⟨(y 1).val, hq⟩ : Fin 2048) :=
    funext fun a => Fin.ext (by match a with | ⟨0, _⟩ => rfl | ⟨1, _⟩ => rfl)
  show tileOut (iblk m c 0 t) (win0_1.fill (grid0.coords t) d (iblk m c 1 t)) (win0_2.xinj (grid0.coords t) y) = _
  rw [hx, tileOut_eq, tile_apply, View.read_apply]
  unfold cosAll
  refine congrArg₂ cosRow (funext fun k => ?_) (funext fun k => ?_)
  · -- row p of the query buffer is row 512 * a + p of the query array
    show V m c main_arg1 (((cfg0.win 0).blk t).view.emb (ix2 (⟨(y 0).val, hp⟩ : Fin 512) k)) = V m c main_arg1 _
    refine congrArg (V m c main_arg1) (funext fun a => Fin.ext ?_)
    match a with
    | ⟨0, _⟩ =>
      show win0_0.index t (0 : Fin 2) * 512 + 1 * (y 0).val = win0_2.index t (0 : Fin 2) * 512 + 1 * (y 0).val
      omega
    | ⟨1, _⟩ =>
      show win0_0.index t (1 : Fin 2) * 512 + 1 * k.val = k.val
      omega
  · -- row q of the support buffer, q inside the array, is row 2048 * b + q of the support array
    have hm : win0_1.moved (grid0.coords t) (ix2 (⟨(y 1).val, hq⟩ : Fin 2048) k) = true :=
      (win0_1.moved_iff _ _).mpr fun a => by
        match a with
        | ⟨0, _⟩ => show (y 1).val < win0_1.xsize (grid0.coords t) (0 : Fin 2); omega
        | ⟨1, _⟩ => show k.val < win0_1.xsize (grid0.coords t) (1 : Fin 2); have := k.isLt; omega
    unfold Window.fill
    rw [dif_pos hm]
    show V m c main_arg0 (((cfg0.win 1).blk t).view.emb _) = V m c main_arg0 _
    refine congrArg (V m c main_arg0) (funext fun a => Fin.ext ?_)
    match a with
    | ⟨0, _⟩ =>
      show win0_1.index t (0 : Fin 2) * 2048 + 1 * (y 1).val = win0_2.index t (1 : Fin 2) * 2048 + 1 * (y 1).val
      omega
    | ⟨1, _⟩ =>
      show win0_1.index t (1 : Fin 2) * 512 + 1 * k.val = k.val
      omega

/-- So the part of the tile inside the array does not depend on the support buffer's tail. -/
theorem tileLocal : TileLocal m := fun c t d d' => (tile_cut_eq m c t d).trans (tile_cut_eq m c t d').symm

/-- What point t writes back is block t of the cosine similarities. -/
theorem flushed_eq (c : Dev nD) (t : Fin cfg0.N) :
    (dats m 0 c).flushed 2 t = ((cfg0.win 2).blk t).view.read (Elt Ideal) (cosAll (V m c main_arg0) (V m c main_arg1)) := by
  show (cfg0.win 2).cut (grid0.coords t) ((dats m 0 c).after 2 t) = _
  rw [after0_2]
  unfold supTile
  exact tile_cut_eq m c t (fun _ => pad)

/-- An entry of the result is in point t's block iff, on each axis, it is among the tile's coordinates inside
    the array. -/
theorem mem_blk (t : Fin cfg0.N) (i : S2048x50000.Idx) :
    i ∈ ((cfg0.win 2).blk t).view.set ↔ ∀ a : Fin 2, win0_2.index t a * S512x2048.size a ≤ (i a).val
      ∧ (i a).val < win0_2.index t a * S512x2048.size a + win0_2.xsize (grid0.coords t) a := by
  show i ∈ ((View.whole main_v0).slice (win0_2.rect t)).set ↔ _
  rw [View.set_slice_whole, Rect.mem_set_unit]
  exact Iff.rfl

/-- Every entry (i, j) of the result is in the block of the point whose tiles are i / 512 and j / 2048. -/
theorem cover (i : S2048x50000.Idx) :
    ∃ t : Fin cfg0.N, (cfg0.win 2).flush t = true ∧ i ∈ ((cfg0.win 2).blk t).view.set := by
  have hi0 : (i 0).val < 2048 := (i 0).isLt
  have hi1 : (i 1).val < 50000 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  obtain ⟨-, -, -, -, -, -, x20, x21a, x21b, -, -⟩ := idx_facts t
  refine ⟨t, flush0_2 t, (mem_blk t i).mpr fun a => ?_⟩
  match a with
  | ⟨0, _⟩ =>
    show win0_2.index t (0 : Fin 2) * 512 ≤ (i 0).val
      ∧ (i 0).val < win0_2.index t (0 : Fin 2) * 512 + win0_2.xsize (grid0.coords t) (0 : Fin 2)
    omega
  | ⟨1, _⟩ =>
    show win0_2.index t (1 : Fin 2) * 2048 ≤ (i 1).val
      ∧ (i 1).val < win0_2.index t (1 : Fin 2) * 2048 + win0_2.xsize (grid0.coords t) (1 : Fin 2)
    rcases Nat.lt_or_ge (win0_2.index t (1 : Fin 2)) 24 with h | h
    · have := x21a h; omega
    · have := x21b (by omega); omega

/-- The result array after the write-backs: the cosine similarities. -/
theorem final (c : Dev nD) : (dats m 0 c).arrAt 2 cfg0.N = cosAll (V m c main_arg0) (V m c main_arg1) :=
  (dats m 0 c).arrAt_eq_of_cover 2 _ (fun t _ => flushed_eq m c t) cover

/-- Every weakly fair execution of the kernel's program terminates without a fault, with the result array at the
    cosine similarities of the argument arrays' rows and the argument arrays unchanged. -/
theorem run : θ_run defs (onTc (τ := τ) (main (F := Ideal))) ⟨m, fun _ => 0, ρ⟩ fun r => ∀ c : Dev nD,
      r.2.mem ((c.tc : Thread nD τ).loc main_v0)
        = cosAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 2).trans (final m c),
     ((h c).1 1).trans (((dats m 0 c).arrAt_in 1 rfl _).trans ((A_eq m c 1).trans (V_main_arg0 m c))),
     ((h c).1 0).trans (((dats m 0 c).arrAt_in 0 rfl _).trans ((A_eq m c 0).trans (V_main_arg1 m c)))⟩)
    (run_named m ρ (tileLocal m))

end Cert.KernelIdeal.Result

end
-- ==== Proof.RefValue.lean ====
/-
  The reference at exact arithmetic is the cosine similarity of every query row with every support row: its
  last operation's result, read one operation at a time at an index, is the quotient of the rows' dot product by
  the larger of the product of the two norms and the constant; each host sum starts from the zero word, which
  adds nothing.
-/
import proofs.«141503_j2594160247418_2_alg».proof.Proof.Gen.ReferenceIdeal.Read
import proofs.«141503_j2594160247418_2_alg».proof.Proof.CosRow

noncomputable section

namespace Cert.ReferenceIdeal.RefValue

open Cert.ReferenceIdeal Cert.ReferenceIdeal.Read Cert.Cosine
open Idealize.ShloMosaic Idealize.ShloMosaic.ValueIdx

/-- The reference's result, as the operations compose it, is the cosine similarity of query row i and support
    row j at every entry (i, j). -/
theorem ref_eq (s : (⟨S50000x512, .f32⟩ : BufTy).Contents (Elt Ideal)) (qa : (⟨S2048x512, .f32⟩ : BufTy).Contents (Elt Ideal)) :
    val_main_v10 (F := Ideal) s qa = cosAll s qa := by
  funext i
  have e1 : ∀ k : Fin 512, lidx_main_v0 i k = ix2 (⟨(i 0).val, (i 0).isLt⟩ : Fin 2048) k := fun k =>
    funext fun a => Fin.ext (by match a with | ⟨0, _⟩ => rfl | ⟨1, _⟩ => rfl)
  have e2 : ∀ k : Fin 512, ridx_main_v0 i k = ix2 (⟨(i 1).val, (i 1).isLt⟩ : Fin 50000) k := fun k =>
    funext fun a => Fin.ext (by match a with | ⟨0, _⟩ => rfl | ⟨1, _⟩ => rfl)
  have e3 : ∀ k : Fin 512, idx_main_call1_v1 (idx_main_v3 (idx_main_v5 i)) k = ix2 (⟨(i 0).val, (i 0).isLt⟩ : Fin 2048) k := fun k =>
    funext fun a => Fin.ext (by match a with | ⟨0, _⟩ => rfl | ⟨1, _⟩ => rfl)
  have e4 : ∀ k : Fin 512, idx_main_call0_v1 (idx_main_v4 (idx_main_v6 i)) k = ix2 (⟨(i 1).val, (i 1).isLt⟩ : Fin 50000) k := fun k =>
    funext fun a => Fin.ext (by match a with | ⟨0, _⟩ => rfl | ⟨1, _⟩ => rfl)
  rw [val_main_v10_apply, val_main_v0_apply, val_main_v9_apply, val_main_v7_apply, val_main_v5_apply, val_main_v3_apply,
    val_main_v2_apply, val_main_call1_v1_apply, val_main_v6_apply, val_main_v4_apply, val_main_v1_apply,
    val_main_call0_v1_apply, val_main_v8_apply, val_main_cst_apply]
  simp only [val_main_call1_v0_apply, val_main_call0_v0_apply, val_main_call1_cst_apply, val_main_call0_cst_apply,
    e1, e2, e3, e4, Ideal.hostDivf_def, Ideal.maximumf_def, Ideal.mulf_def, Ideal.hostUnary_sqrt_def, Ideal.ofBits_def,
    Ideal.ofBits_zero_f32, zero_add]
  rfl

end Cert.ReferenceIdeal.RefValue

end
-- ==== Proof.lean ====
/-
  The cosine-similarity kernel against its reference: for a support array of 50000 rows and a query array of 2048
  rows, 512 columns each, both programs end with the 2048 x 50000 array whose entry (i, j) is the dot product of
  query row i and support row j divided by the larger of the product of the two rows' norms and a small constant.

  The kernel tiles the result 4 x 25 (512 query rows by 2048 support rows a tile); the support array's 50000 rows
  are not a multiple of 2048, so the last support tile and the last column tile of the result reach past their
  arrays. A result column reads its own support row only, so what the staging buffer holds past the support
  array's end never reaches a column inside the result (Result.lean). Over the extended reals the kernel's matrix
  product into a zero accumulator and its lane sums are the same sums the reference's dot product and its
  reductions from zero are, the change of float format before the product is the identity, and square root,
  maximum and quotient are one function on both sides: no law that would need finite inputs is used.

  The three frames: the two kernel programs' by the run of the body on the staging buffers with the result window
  left unnamed (Staging.lean, and the same text for the word-level program), the reference's by its run. The
  idealization rewrote nothing, so there is nothing to preserve.
-/
import proofs.«141503_j2594160247418_2_alg».proof.Defs
import proofs.«141503_j2594160247418_2_alg».proof.Proof.Gen.Kernel
import proofs.«141503_j2594160247418_2_alg».proof.Proof.Gen.Kernel.Skeleton
import proofs.«141503_j2594160247418_2_alg».proof.Proof.Gen.Kernel.Launch
import proofs.«141503_j2594160247418_2_alg».proof.Proof.Gen.Kernel.Points
import proofs.«141503_j2594160247418_2_alg».proof.Proof.Gen.Kernel.Frame
import proofs.«141503_j2594160247418_2_alg».proof.Proof.Gen.KernelIdeal
import proofs.«141503_j2594160247418_2_alg».proof.Proof.Gen.KernelIdeal.Skeleton
import proofs.«141503_j2594160247418_2_alg».proof.Proof.Gen.KernelIdeal.Launch
import proofs.«141503_j2594160247418_2_alg».proof.Proof.Gen.KernelIdeal.Points
import proofs.«141503_j2594160247418_2_alg».proof.Proof.Gen.KernelIdeal.Frame
import proofs.«141503_j2594160247418_2_alg».proof.Proof.Gen.ReferenceIdeal
import proofs.«141503_j2594160247418_2_alg».proof.Proof.Gen.Pre_finite_inputs
import proofs.«141503_j2594160247418_2_alg».proof.Proof.Gen.ReferenceIdeal.Run
import proofs.«141503_j2594160247418_2_alg».proof.Proof.Gen.ReferenceIdeal.Read
import proofs.«141503_j2594160247418_2_alg».proof.Proof.Staging
import proofs.«141503_j2594160247418_2_alg».proof.Proof.StagingBits
import proofs.«141503_j2594160247418_2_alg».proof.Proof.Result
import proofs.«141503_j2594160247418_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Staging.frame m ρ

theorem frame_kernelIdeal : Cert.frame_KernelIdeal :=
  fun m ρ _ => Cert.KernelIdeal.Staging.frame m ρ

theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the two argument arrays both programs end with the cosine similarities of the
    arguments' rows: the kernel by the tiles it writes back, the reference by its operations read at an index. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
